-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg12 : FVec F S64x16 .f32) (main_arg13 : FVec F S16 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x16 .f32 := Host.absf main_arg12
  let main_cst_20 : FVec F S_ .f32 := constant S_ .f32 0x7F800000#32
  let main_v55 : FVec F S64x16 .f32 := broadcastInDim S64x16 ![] bcast_S_S64x16 main_cst_20
  let main_v56 : IVec S64x16 1 := cmpf .olt main_v54 main_v55
  let main_c_21 : IVec S_ 1 := constantI S_ 1 1#1
  let main_v57 : IVec S_ 1 := (fun x v => Host.reduce IntOp.andi x v reducesTo_S64x16_S_d0_1 h_S_) main_v56 main_c_21
  let main_v58 : IVec S_ 1 := andi main_v53 main_v57
  let main_v59 : FVec F S16 .f32 := Host.absf main_arg13
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  main_v63

def fn_part2 {F : FTy → Type} [FloatOps F] (main_arg8 : FVec F S64x64 .f32) (main_arg9 : FVec F S64 .f32) (main_arg10 : FVec F S64x64 .f32) (main_arg11 : FVec F S64 .f32) (main_arg12 : FVec F S64x16 .f32) (main_arg13 : FVec F S16 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x16 .f32) (main_arg13 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x32 .f32) (main_arg1 : IVec S2x1600000 32) (main_arg2 : FVec F S32x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x16 .f32) (main_arg13 : FVec F S16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S1x64 : Shape := ⟨2, ![1, 64]⟩
abbrev S100000x64 : Shape := ⟨2, ![100000, 64]⟩
abbrev S5000x32 : Shape := ⟨2, ![5000, 32]⟩
abbrev S5000x64 : Shape := ⟨2, ![5000, 64]⟩
abbrev S1600000x64 : Shape := ⟨2, ![1600000, 64]⟩
abbrev S1x16 : Shape := ⟨2, ![1, 16]⟩
abbrev S100000x16 : Shape := ⟨2, ![100000, 16]⟩
abbrev S5000x16 : Shape := ⟨2, ![5000, 16]⟩

abbrev nBuf : Space → Nat
  | .hbm => 55
  | .vmem => 24
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x16, .f32⟩
  | .hbm, ⟨13, _⟩ => ⟨S16, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x32, .f32⟩
  | .hbm, ⟨27, _⟩ => ⟨S_, .f32⟩
  | .hbm, ⟨28, _⟩ => ⟨S100000x32, .f32⟩
  | .hbm, ⟨29, _⟩ => ⟨S1600000x1, .i32⟩
  | .hbm, ⟨30, _⟩ => ⟨S100000x32, .f32⟩
  | .hbm, ⟨31, _⟩ => ⟨S100000x32, .f32⟩
  | .hbm, ⟨32, _⟩ => ⟨S1x64, .f32⟩
  | .hbm, ⟨33, _⟩ => ⟨S1x64, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S1x64, .f32⟩
  | .hbm, ⟨51, _⟩ => ⟨S100000x64, .f32⟩
  | .hbm, ⟨52, _⟩ => ⟨S1x64, .f32⟩
  | .hbm, ⟨53, _⟩ => ⟨S1x16, .f32⟩
  | .hbm, ⟨54, _⟩ => ⟨S100000x16, .f32⟩
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S1x64, .f32⟩
  | .local _ .vmem, ⟨20, _⟩ => ⟨S64x16, .f32⟩
  | .local _ .vmem, ⟨21, _⟩ => ⟨S1x16, .f32⟩
  | .local _ .vmem, ⟨22, _⟩ => ⟨S5000x16, .f32⟩
  | .local _ .vmem, ⟨23, _⟩ => ⟨S5000x16, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_1 : Ref sig .tc := ⟨.hbm, 35, rfl⟩
abbrev main_v18 : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x16.size a ≤ S64x16.size a
  hwx2_3 : ∀ i : grid2.Coords, EltTy.bits .f32 = 32 ∨ (Rect.block (s := S64x16) S64x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S100000x16.size a
  hwx2_5 : ∀ i : grid2.Coords, EltTy.bits .f32 = 32 ∨ (Rect.block (s := S100000x16) S5000x16.size (cc2_transform_5 i) (hinb2_5 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_v14) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S64x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S5000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩
abbrev S100000x16 : Shape := ⟨2, ![100000, 16]⟩
abbrev S1x16 : Shape := ⟨2, ![1, 16]⟩

abbrev nBuf : Space → Nat
  | .hbm => 79
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x16, .f32⟩
  | .hbm, ⟨13, _⟩ => ⟨S16, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x32, .f32⟩
  | .hbm, ⟨27, _⟩ => ⟨S_, .f32⟩
  | .hbm, ⟨28, _⟩ => ⟨S100000x32, .f32⟩
  | .hbm, ⟨29, _⟩ => ⟨S1600000x1, .i32⟩
  | .hbm, ⟨30, _⟩ => ⟨S100000x32, .f32⟩
  | .hbm, ⟨31, _⟩ => ⟨S100000x32, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S_, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | .hbm, ⟨75, _⟩ => ⟨S100000x16, .f32⟩
  | .hbm, ⟨76, _⟩ => ⟨S1x16, .f32⟩
  | .hbm, ⟨77, _⟩ => ⟨S100000x16, .f32⟩
  | .hbm, ⟨78, _⟩ => ⟨S100000x16, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_2 : Ref sig .tc := ⟨.hbm, 43, rfl⟩
abbrev main_v25 : Ref sig .tc := ⟨.hbm, 44, rfl⟩
abbrev main_v26 : Ref sig .tc := ⟨.hbm, 45, rfl⟩
abbrev main_c_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KernelRun.lean ====
/-
  The idealized kernel's run with its final memory NAMED.

  @main is six segments: a stretch of host operations, a pallas_call, a second stretch, a second pallas_call, two
  reshapes, a third pallas_call. The contents of the TensorCore's buffers at each boundary are a fold through them
  (W0 the launch memory, … , W6 after the last region). Every weakly fair execution terminates, nothing faulting,
  and every buffer that is not scoped to a region ends holding W6's contents: in particular the result buffer and
  the fourteen arguments.
-/
import proofs.«140424_j34359738368489_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The run with the result buffer at the last boundary's contents and the arguments as launched. -/
theorem run_named : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨h c _ (mem_uc main_v34 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)
    (run_all m ρ)

end Cert.KernelIdeal.Run

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibDenseLayer.lean ====
/-
  Dense (fully connected) layers on the extended reals, and the same layers as a vector unit computes them.

  A matrix is a function of a rank-2 index. The AFFINE layer  l · w + b  has entry (p, c) equal to
  Σ_q l[p,q] · w[q,c] + b[0,c], the bias a 1×N row repeated down the rows; the HIDDEN layer takes the maximum of that with
  the float word of 0.0 (relu; the word is never evaluated). Three kinds of facts, any extents, no program needed:

  * entry (p, c) of a layer depends only on row p of the left operand, column c of the weights and entry c of the bias
    row (`affine_congr`, `hidden_congr`; `network_rows` for a stack of two hidden layers and an affine one), which is what
    lets a block computed from a tile of an operand be read as a block of the layer of the whole arrays;
  * a product into a zero accumulator, plus the bias row broadcast down the rows, and the maximum with the zero splat,
    is the layer as a whole array (`affine_eq`, `hidden_eq`; `product_apply` for the product alone), for dimension numbers
    contracting the left operand's second axis against the right operand's first, any operand formats;
  * a change of float format is the identity (`truncf_eq`) and a vector reshaped to a 1×A row is `row` of it
    (`reshape_row`).
-/
import Idealize.ShloMosaic.PureOps.Ideal.Laws
import Idealize.ShloMosaic.Lib.ValueIdx
import Idealize.ShloMosaic.Lib.ValueLayout
import proofs.«140424_j34359738368489_1_alg».proof.Proof.LibPlainDot

noncomputable section

open scoped BigOperators

namespace Cert.DenseLayer

open Idealize.ShloMosaic Idealize.ShloMosaic.ValueIdx

/-- An A×B matrix of extended reals. -/
abbrev Mat (A B : Nat) : Type := (⟨2, ![A, B]⟩ : Shape).Idx → EReal
/-- A length-A vector of extended reals. -/
abbrev Vect (A : Nat) : Type := (⟨1, ![A]⟩ : Shape).Idx → EReal

/-- The float word of 0.0 read on the extended reals. -/
abbrev zeroWord : EReal := Ideal.ofBits .f32 0x00000000#32

/-- A vector laid out as a 1×A row. -/
def row {A : Nat} (v : Vect A) : Mat 1 A := fun i => v (ix1 (i 1))

theorem row_apply {A : Nat} (v : Vect A) (u : Fin 1) (c : Fin A) : row v (ix2 u c) = v (ix1 c) := rfl

/-- A vector reshaped to a 1×A row is `row` of it. -/
theorem reshape_row {A : Nat} (v : Vect A) (h : (⟨1, ![A]⟩ : Shape).ShapeCasts ⟨2, ![1, A]⟩) :
    shapeCast ⟨2, ![1, A]⟩ v h = row v := by
  funext i
  obtain ⟨u, q, rfl⟩ : ∃ (u : Fin 1) (q : Fin A), i = ix2 u q := ⟨i 0, i 1, eq_ix2 i⟩
  rw [shapeCast_a_1a_apply, row_apply]

/-- l · w + b, the bias a 1×N row repeated down the rows. -/
def affine {M K N : Nat} (l : Mat M K) (w : Mat K N) (b : Mat 1 N) : Mat M N :=
  fun j => (∑ q : Fin K, l (ix2 (j 0) q) * w (ix2 q (j 1))) + b (ix2 (0 : Fin 1) (j 1))

theorem affine_apply {M K N : Nat} (l : Mat M K) (w : Mat K N) (b : Mat 1 N) (p : Fin M) (c : Fin N) :
    affine l w b (ix2 p c) = (∑ q : Fin K, l (ix2 p q) * w (ix2 q c)) + b (ix2 (0 : Fin 1) c) := rfl

/-- relu(l · w + b). -/
def hidden {M K N : Nat} (l : Mat M K) (w : Mat K N) (b : Mat 1 N) : Mat M N :=
  fun j => max (affine l w b j) zeroWord

theorem hidden_apply {M K N : Nat} (l : Mat M K) (w : Mat K N) (b : Mat 1 N) (p : Fin M) (c : Fin N) :
    hidden l w b (ix2 p c) = max ((∑ q : Fin K, l (ix2 p q) * w (ix2 q c)) + b (ix2 (0 : Fin 1) c)) zeroWord := rfl

/-! ## An entry depends on one row, one column and one bias entry -/

section Congr
variable {M M' K N N' : Nat}

theorem affine_congr (l : Mat M K) (l' : Mat M' K) (w : Mat K N) (w' : Mat K N') (b : Mat 1 N) (b' : Mat 1 N')
    (p : Fin M) (p' : Fin M') (c : Fin N) (c' : Fin N')
    (hl : ∀ q : Fin K, l (ix2 p q) = l' (ix2 p' q)) (hw : ∀ q : Fin K, w (ix2 q c) = w' (ix2 q c'))
    (hb : b (ix2 (0 : Fin 1) c) = b' (ix2 (0 : Fin 1) c')) :
    affine l w b (ix2 p c) = affine l' w' b' (ix2 p' c') := by
  rw [affine_apply, affine_apply, hb]
  exact congrArg (· + b' (ix2 (0 : Fin 1) c')) (Finset.sum_congr rfl fun q _ => by rw [hl q, hw q])

theorem hidden_congr (l : Mat M K) (l' : Mat M' K) (w : Mat K N) (w' : Mat K N') (b : Mat 1 N) (b' : Mat 1 N')
    (p : Fin M) (p' : Fin M') (c : Fin N) (c' : Fin N')
    (hl : ∀ q : Fin K, l (ix2 p q) = l' (ix2 p' q)) (hw : ∀ q : Fin K, w (ix2 q c) = w' (ix2 q c'))
    (hb : b (ix2 (0 : Fin 1) c) = b' (ix2 (0 : Fin 1) c')) :
    hidden l w b (ix2 p c) = hidden l' w' b' (ix2 p' c') :=
  congrArg (max · zeroWord) (affine_congr l l' w w' b b' p p' c c' hl hw hb)

/-- Rows of a network of two hidden layers and an affine one: a block of input rows gives the same rows of the output. -/
theorem network_rows {K1 K2 K3 : Nat} (x : Mat M K1) (x' : Mat M' K1) (w1 : Mat K1 K2) (b1 : Mat 1 K2) (w2 : Mat K2 K3) (b2 : Mat 1 K3)
    (w3 : Mat K3 N) (b3 : Mat 1 N) (p : Fin M) (p' : Fin M') (hx : ∀ q : Fin K1, x (ix2 p q) = x' (ix2 p' q)) (c : Fin N) :
    affine (hidden (hidden x w1 b1) w2 b2) w3 b3 (ix2 p c) = affine (hidden (hidden x' w1 b1) w2 b2) w3 b3 (ix2 p' c) :=
  affine_congr _ _ w3 w3 b3 b3 p p' c c
    (fun n => hidden_congr _ _ w2 w2 b2 b2 p p' n n
      (fun k => hidden_congr x x' w1 w1 b1 b1 p p' k k hx (fun _ => rfl) rfl) (fun _ => rfl) rfl)
    (fun _ => rfl) rfl

end Congr

/-! ## The layers as the vector unit computes them -/

section Unit
variable {M K N : Nat} {d : DotDims ⟨2, ![M, K]⟩ ⟨2, ![K, N]⟩ ⟨2, ![M, N]⟩}

/-- Product into a zero accumulator plus the bias row: the affine layer. -/
theorem affine_eq (hd : Cert.PlainDot.IsPlain d) (prec : Option ContractPrecision) {φ₁ φ₂ : FTy}
    (l : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) :
    addf (matmul d prec l w (constant ⟨2, ![M, N]⟩ .f32 0x00000000#32)) (broadcastTo ⟨2, ![M, N]⟩ b hb)
      = affine l w b := by
  funext j
  obtain ⟨p, c, rfl⟩ : ∃ (p : Fin M) (c : Fin N), j = ix2 p c := ⟨j 0, j 1, eq_ix2 j⟩
  rw [addf_apply, Cert.PlainDot.matmul_zero_apply hd, broadcastTo_1b_ab_apply, affine_apply]

/-- … and the maximum with the zero splat: the hidden layer. -/
theorem hidden_eq (hd : Cert.PlainDot.IsPlain d) (prec : Option ContractPrecision) {φ₁ φ₂ : FTy}
    (l : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) :
    maximumf (addf (matmul d prec l w (constant ⟨2, ![M, N]⟩ .f32 0x00000000#32)) (broadcastTo ⟨2, ![M, N]⟩ b hb))
        (broadcast ⟨2, ![M, N]⟩ (Scalar.ofBits (F := Ideal) .f32 0x00000000#32))
      = hidden l w b := by
  rw [affine_eq hd]
  rfl

/-- A product into a zero accumulator alone, entry by entry. -/
theorem product_apply (hd : Cert.PlainDot.IsPlain d) (prec : Option ContractPrecision) {φ₁ φ₂ : FTy}
    (l : FVec Ideal ⟨2, ![M, K]⟩ φ₁) (w : FVec Ideal ⟨2, ![K, N]⟩ φ₂) (p : Fin M) (c : Fin N) :
    matmul d prec l w (constant ⟨2, ![M, N]⟩ .f32 0x00000000#32) (ix2 p c) = ∑ q : Fin K, l (ix2 p q) * w (ix2 q c) :=
  Cert.PlainDot.matmul_zero_apply hd prec l w p c

end Unit

/-- A change of float format is the identity on the extended reals. -/
theorem truncf_eq {s : Shape} {φ ψ : FTy} (a : FVec Ideal s φ) (h : ψ.bits < φ.bits) :
    (truncf ψ a h : FVec Ideal s ψ) = a := rfl

end Cert.DenseLayer

end
-- ==== Proof.Region0.lean ====
/-
  REGION 0: the first pallas_call's output array as one function of the arrays the region finds.

  The grid has 20 points. At point t the body loads rows 5000·t … 5000·t + 4999 of its node array (window 0), the whole
  first weight matrix, first bias row, second weight matrix and second bias row (windows 1–4, the same block at every
  point), and stores  relu(x · w1 + b1) · w2 + b2  of those rows to rows 5000·t … of the output (window 5). A row of a
  dense layer depends only on the same row of its left operand, so the stored block is that block of the network of
  the WHOLE arrays; the 20 blocks tile the 100000 rows, so the output array ends holding the network of the whole
  arrays.
-/
import proofs.«140424_j34359738368489_1_alg».proof.Proof.Gen.KernelIdeal.Frame
import proofs.«140424_j34359738368489_1_alg».proof.Proof.LibDenseLayer
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem Cert.DenseLayer

variable (V : (c : Dev nD) → (b : Ref sig .tc) → Buf (Elt Ideal) ((c : Thread nD τ).loc b))

theorem zeros : (![0, 0] : Fin 2 → Nat) = fun _ => 0 := funext fun a => by fin_cases a <;> rfl

theorem plain1 : Cert.PlainDot.IsPlain dot_S5000x32_S32x64_S5000x64_1_0_0_1_n_n := ⟨rfl, rfl, rfl, rfl, rfl, rfl⟩
theorem plain2 : Cert.PlainDot.IsPlain dot_S5000x64_S64x64_S5000x64_1_0_0_1_n_n := ⟨rfl, rfl, rfl, rfl, rfl, rfl⟩

/-- The value the body stores is the two-layer network of the five blocks it loaded (a change of float format and a
    cast of a shape to itself are the identity; each product goes into a zero accumulator). -/
theorem stored_eq (x0 : Vec Ideal S5000x32 .f32) (x1 : Vec Ideal S32x64 .f32) (x2 : Vec Ideal S1x64 .f32)
    (x3 : Vec Ideal S64x64 .f32) (x4 : Vec Ideal S1x64 .f32) :
    k0_pay1 (F := Ideal) x0 x1 x2 x3 x4 = affine (hidden x0 x1 x2) x3 x4 := by
  unfold k0_pay1
  simp only [shapeCast_self, truncf_eq]
  rw [Cert.DenseLayer.hidden_eq plain1, Cert.DenseLayer.affine_eq plain2]

/-- A row of the network of a block of rows is the same row of the network of the whole array. -/
theorem rows_eq (X : Mat 100000 32) (W1 : Mat 32 64) (B1 : Mat 1 64) (W2 : Mat 64 64) (B2 : Mat 1 64)
    (x0 : Mat 5000 32) (x1 : Mat 32 64) (x2 : Mat 1 64) (x3 : Mat 64 64) (x4 : Mat 1 64)
    (p : Fin 5000) (P : Fin 100000) (q : Fin 64)
    (h0 : ∀ k : Fin 32, x0 (ix2 p k) = X (ix2 P k)) (h1 : x1 = W1) (h2 : x2 = B1) (h3 : x3 = W2) (h4 : x4 = B2) :
    affine (hidden x0 x1 x2) x3 x4 (ix2 p q) = affine (hidden X W1 B1) W2 B2 (ix2 P q) := by
  subst h1 h2 h3 h4
  exact affine_congr _ _ x3 x3 x4 x4 p P q q
    (fun n => hidden_congr x0 X x1 x1 x2 x2 p P n n h0 (fun _ => rfl) rfl) (fun _ => rfl) rfl

/-- The printed index maps over the grid: windows 0 and 5 move down the rows with the point, windows 1–4 stay. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 20 := lt_of_lt_of_eq t.isLt N_0

/-- Windows 1–4 hold their whole arrays at every point. -/
theorem block1 (c : Dev nD) (t : Fin cfg0.N) : iblk0 V c 1 t = V c main_arg2 := by
  obtain ⟨-, -, e0, e1, -⟩ := index_facts t
  funext y
  show V c main_arg2 (((cfg0.win 1).blk t).view.emb y) = V c main_arg2 y
  refine congrArg _ (funext fun a => Fin.ext ?_)
  match a with
  | ⟨0, _⟩ => show win0_1.index t (0 : Fin 2) * 32 + 1 * (y 0).val = (y 0).val; omega
  | ⟨1, _⟩ => show win0_1.index t (1 : Fin 2) * 64 + 1 * (y 1).val = (y 1).val; omega
theorem block2 (c : Dev nD) (t : Fin cfg0.N) : iblk0 V c 2 t = V c main_v15 := by
  obtain ⟨-, -, -, -, e0, e1, -⟩ := index_facts t
  funext y
  show V c main_v15 (((cfg0.win 2).blk t).view.emb y) = V c main_v15 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega
theorem block3 (c : Dev nD) (t : Fin cfg0.N) : iblk0 V c 3 t = V c main_arg4 := by
  obtain ⟨-, -, -, -, -, -, e0, e1, -⟩ := index_facts t
  funext y
  show V c main_arg4 (((cfg0.win 3).blk t).view.emb y) = V c main_arg4 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega
theorem block4 (c : Dev nD) (t : Fin cfg0.N) : iblk0 V c 4 t = V c main_v16 := by
  obtain ⟨-, -, -, -, -, -, -, -, e0, e1, -⟩ := index_facts t
  funext y
  show V c main_v16 (((cfg0.win 4).blk t).view.emb y) = V c main_v16 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Window 0's block at point t holds rows 5000·t … of the node array. -/
theorem block0 (c : Dev nD) (t : Fin cfg0.N) (p : Fin 5000) (P : Fin 100000) (hP : P.val = t.val * 5000 + p.val) (k : Fin 32) :
    iblk0 V c 0 t (ix2 p k) = V c main_v14 (ix2 P k) := by
  obtain ⟨e0, e1, -⟩ := index_facts t
  show V c main_v14 (((cfg0.win 0).blk t).view.emb (ix2 p k)) = V c main_v14 (ix2 P k)
  refine congrArg _ (funext fun a => Fin.ext ?_)
  match a with
  | ⟨0, _⟩ => show win0_0.index t (0 : Fin 2) * 5000 + 1 * p.val = P.val; omega
  | ⟨1, _⟩ => show win0_0.index t (1 : Fin 2) * 32 + 1 * k.val = k.val; omega

/-- The output block's position (p, q) is the array's position (5000·t + p, q). -/
theorem out_emb (t : Fin cfg0.N) (p : Fin 5000) (P : Fin 100000) (hP : P.val = t.val * 5000 + p.val) (q : Fin 64) :
    ((cfg0.win 5).blk t).view.emb (ix2 p q) = ix2 P q := by
  obtain ⟨-, -, -, -, -, -, -, -, -, -, e0, e1⟩ := index_facts t
  refine funext fun a => Fin.ext ?_
  match a with
  | ⟨0, _⟩ => show win0_5.index t (0 : Fin 2) * 5000 + 1 * p.val = P.val; omega
  | ⟨1, _⟩ => show win0_5.index t (1 : Fin 2) * 64 + 1 * q.val = q.val; omega

/-- WHAT POINT t WRITES BACK is block t of the network of the whole arrays. -/
theorem flushed_eq (c : Dev nD) (t : Fin cfg0.N) :
    (dat0 V c).flushed 5 t = ((cfg0.win 5).blk t).view.read (Elt Ideal)
      (affine (hidden (V c main_v14) (V c main_arg2) (V c main_v15)) (V c main_arg4) (V c main_v16)) := by
  show (cfg0.win 5).cut (grid0.coords t) ((dat0 V c).after 5 t) = _
  rw [after0_5]
  unfold out0_5
  rw [View.canon_unit_zero zeros]
  simp only [View.ld_unit_zero (S := S5000x32) zeros, View.ld_unit_zero (S := S32x64) zeros, View.ld_unit_zero (S := S1x64) zeros, View.ld_unit_zero (S := S64x64) zeros]
  rw [stored_eq]
  funext y
  obtain ⟨p, q, rfl⟩ : ∃ (p : Fin 5000) (q : Fin 64), y = ix2 p q := ⟨y 0, y 1, eq_ix2 y⟩
  have hlt : t.val * 5000 + p.val < 100000 := by have := point_lt t; have := p.isLt; omega
  show affine (hidden (iblk0 V c 0 t) (iblk0 V c 1 t) (iblk0 V c 2 t)) (iblk0 V c 3 t) (iblk0 V c 4 t) (ix2 p q)
    = affine (hidden (V c main_v14) (V c main_arg2) (V c main_v15)) (V c main_arg4) (V c main_v16) (((cfg0.win 5).blk t).view.emb (ix2 p q))
  rw [out_emb t p ⟨t.val * 5000 + p.val, hlt⟩ rfl q]
  exact rows_eq _ _ _ _ _ _ _ _ _ _ p ⟨t.val * 5000 + p.val, hlt⟩ q
    (fun k => block0 V c t p ⟨t.val * 5000 + p.val, hlt⟩ rfl k) (block1 V c t) (block2 V c t) (block3 V c t) (block4 V c t)

/-- An index of the output array is in point t's block iff each coordinate is in the block's range. -/
theorem mem_block (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v17).slice (win0_5.rect t)).set ↔ _
  rw [View.set_slice_whole, Rect.mem_set_unit]
  exact Iff.rfl

/-- Row r of the output is written by point r / 5000. -/
theorem covered (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : (i 0).val / 5000 < cfg0.N := by rw [show cfg0.N = 20 from N_0]; omega
  refine ⟨⟨(i 0).val / 5000, hN⟩, flush0_5 _, ?_⟩
  rw [mem_block]
  obtain ⟨-, -, -, -, -, -, -, -, -, -, e0, e1⟩ := index_facts ⟨(i 0).val / 5000, hN⟩
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    have e0' : win0_5.index ⟨(i 0).val / 5000, hN⟩ (0 : Fin 2) = (i 0).val / 5000 := e0
    omega
  | ⟨1, _⟩ =>
    show win0_5.index ⟨(i 0).val / 5000, hN⟩ (1 : Fin 2) * 64 ≤ (i 1).val ∧ (i 1).val < win0_5.index ⟨(i 0).val / 5000, hN⟩ (1 : Fin 2) * 64 + 64
    omega

/-- THE OUTPUT ARRAY after the region: the two-layer network of the arrays the region found. -/
theorem final (c : Dev nD) :
    (dat0 V c).arrAt 5 cfg0.N = affine (hidden (V c main_v14) (V c main_arg2) (V c main_v15)) (V c main_arg4) (V c main_v16) :=
  (dat0 V c).arrAt_eq_of_cover 5 _ (fun t _ => flushed_eq V c t) covered

end Cert.KernelIdeal.Region0

end
-- ==== Proof.Region1.lean ====
/-
  REGION 1: the second pallas_call's output array as one function of the arrays the region finds.

  The grid has 20 points. At point t the body loads rows 5000·t … 5000·t + 4999 of its node array (window 0), the whole
  first weight matrix, first bias row, second weight matrix and second bias row (windows 1–4, the same block at every
  point), and stores  relu(x · w1 + b1) · w2 + b2  of those rows to rows 5000·t … of the output (window 5). A row of a
  dense layer depends only on the same row of its left operand, so the stored block is that block of the network of
  the WHOLE arrays; the 20 blocks tile the 100000 rows, so the output array ends holding the network of the whole
  arrays.
-/
import proofs.«140424_j34359738368489_1_alg».proof.Proof.Gen.KernelIdeal.Frame
import proofs.«140424_j34359738368489_1_alg».proof.Proof.LibDenseLayer
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem Cert.DenseLayer

variable (V : (c : Dev nD) → (b : Ref sig .tc) → Buf (Elt Ideal) ((c : Thread nD τ).loc b))

theorem zeros : (![0, 0] : Fin 2 → Nat) = fun _ => 0 := funext fun a => by fin_cases a <;> rfl

theorem plain1 : Cert.PlainDot.IsPlain dot_S5000x64_S64x64_S5000x64_1_0_0_1_n_n := ⟨rfl, rfl, rfl, rfl, rfl, rfl⟩
theorem plain2 : Cert.PlainDot.IsPlain dot_S5000x64_S64x64_S5000x64_1_0_0_1_n_n := ⟨rfl, rfl, rfl, rfl, rfl, rfl⟩

/-- The value the body stores is the two-layer network of the five blocks it loaded (a change of float format and a
    cast of a shape to itself are the identity; each product goes into a zero accumulator). -/
theorem stored_eq (x0 : Vec Ideal S5000x64 .f32) (x1 : Vec Ideal S64x64 .f32) (x2 : Vec Ideal S1x64 .f32)
    (x3 : Vec Ideal S64x64 .f32) (x4 : Vec Ideal S1x64 .f32) :
    k1_pay1 (F := Ideal) x0 x1 x2 x3 x4 = affine (hidden x0 x1 x2) x3 x4 := by
  unfold k1_pay1
  simp only [shapeCast_self, truncf_eq]
  rw [Cert.DenseLayer.hidden_eq plain1, Cert.DenseLayer.affine_eq plain2]

/-- A row of the network of a block of rows is the same row of the network of the whole array. -/
theorem rows_eq (X : Mat 100000 64) (W1 : Mat 64 64) (B1 : Mat 1 64) (W2 : Mat 64 64) (B2 : Mat 1 64)
    (x0 : Mat 5000 64) (x1 : Mat 64 64) (x2 : Mat 1 64) (x3 : Mat 64 64) (x4 : Mat 1 64)
    (p : Fin 5000) (P : Fin 100000) (q : Fin 64)
    (h0 : ∀ k : Fin 64, x0 (ix2 p k) = X (ix2 P k)) (h1 : x1 = W1) (h2 : x2 = B1) (h3 : x3 = W2) (h4 : x4 = B2) :
    affine (hidden x0 x1 x2) x3 x4 (ix2 p q) = affine (hidden X W1 B1) W2 B2 (ix2 P q) := by
  subst h1 h2 h3 h4
  exact affine_congr _ _ x3 x3 x4 x4 p P q q
    (fun n => hidden_congr x0 X x1 x1 x2 x2 p P n n h0 (fun _ => rfl) rfl) (fun _ => rfl) rfl

/-- The printed index maps over the grid: windows 0 and 5 move down the rows with the point, windows 1–4 stay. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 20 := lt_of_lt_of_eq t.isLt N_1

/-- Windows 1–4 hold their whole arrays at every point. -/
theorem block1 (c : Dev nD) (t : Fin cfg1.N) : iblk1 V c 1 t = V c main_arg6 := by
  obtain ⟨-, -, e0, e1, -⟩ := index_facts t
  funext y
  show V c main_arg6 (((cfg1.win 1).blk t).view.emb y) = V c main_arg6 y
  refine congrArg _ (funext fun a => Fin.ext ?_)
  match a with
  | ⟨0, _⟩ => show win1_1.index t (0 : Fin 2) * 64 + 1 * (y 0).val = (y 0).val; omega
  | ⟨1, _⟩ => show win1_1.index t (1 : Fin 2) * 64 + 1 * (y 1).val = (y 1).val; omega
theorem block2 (c : Dev nD) (t : Fin cfg1.N) : iblk1 V c 2 t = V c main_v29 := by
  obtain ⟨-, -, -, -, e0, e1, -⟩ := index_facts t
  funext y
  show V c main_v29 (((cfg1.win 2).blk t).view.emb y) = V c main_v29 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega
theorem block3 (c : Dev nD) (t : Fin cfg1.N) : iblk1 V c 3 t = V c main_arg8 := by
  obtain ⟨-, -, -, -, -, -, e0, e1, -⟩ := index_facts t
  funext y
  show V c main_arg8 (((cfg1.win 3).blk t).view.emb y) = V c main_arg8 y
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega
theorem block4 (c : Dev nD) (t : Fin cfg1.N) : iblk1 V c 4 t = V c main_v30 := by
  obtain ⟨-, -, -, -, -, -, -, -, e0, e1, -⟩ := index_facts t
  funext y
  show V c main_v30 (((cfg1.win 4).blk t).view.emb y) = V c main_v30 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- Window 0's block at point t holds rows 5000·t … of the node array. -/
theorem block0 (c : Dev nD) (t : Fin cfg1.N) (p : Fin 5000) (P : Fin 100000) (hP : P.val = t.val * 5000 + p.val) (k : Fin 64) :
    iblk1 V c 0 t (ix2 p k) = V c main_v28 (ix2 P k) := by
  obtain ⟨e0, e1, -⟩ := index_facts t
  show V c main_v28 (((cfg1.win 0).blk t).view.emb (ix2 p k)) = V c main_v28 (ix2 P k)
  refine congrArg _ (funext fun a => Fin.ext ?_)
  match a with
  | ⟨0, _⟩ => show win1_0.index t (0 : Fin 2) * 5000 + 1 * p.val = P.val; omega
  | ⟨1, _⟩ => show win1_0.index t (1 : Fin 2) * 64 + 1 * k.val = k.val; omega

/-- The output block's position (p, q) is the array's position (5000·t + p, q). -/
theorem out_emb (t : Fin cfg1.N) (p : Fin 5000) (P : Fin 100000) (hP : P.val = t.val * 5000 + p.val) (q : Fin 64) :
    ((cfg1.win 5).blk t).view.emb (ix2 p q) = ix2 P q := by
  obtain ⟨-, -, -, -, -, -, -, -, -, -, e0, e1⟩ := index_facts t
  refine funext fun a => Fin.ext ?_
  match a with
  | ⟨0, _⟩ => show win1_5.index t (0 : Fin 2) * 5000 + 1 * p.val = P.val; omega
  | ⟨1, _⟩ => show win1_5.index t (1 : Fin 2) * 64 + 1 * q.val = q.val; omega

/-- WHAT POINT t WRITES BACK is block t of the network of the whole arrays. -/
theorem flushed_eq (c : Dev nD) (t : Fin cfg1.N) :
    (dat1 V c).flushed 5 t = ((cfg1.win 5).blk t).view.read (Elt Ideal)
      (affine (hidden (V c main_v28) (V c main_arg6) (V c main_v29)) (V c main_arg8) (V c main_v30)) := by
  show (cfg1.win 5).cut (grid1.coords t) ((dat1 V c).after 5 t) = _
  rw [after1_5]
  unfold out1_5
  rw [View.canon_unit_zero zeros]
  simp only [View.ld_unit_zero (S := S5000x64) zeros, View.ld_unit_zero (S := S64x64) zeros, View.ld_unit_zero (S := S1x64) zeros]
  rw [stored_eq]
  funext y
  obtain ⟨p, q, rfl⟩ : ∃ (p : Fin 5000) (q : Fin 64), y = ix2 p q := ⟨y 0, y 1, eq_ix2 y⟩
  have hlt : t.val * 5000 + p.val < 100000 := by have := point_lt t; have := p.isLt; omega
  show affine (hidden (iblk1 V c 0 t) (iblk1 V c 1 t) (iblk1 V c 2 t)) (iblk1 V c 3 t) (iblk1 V c 4 t) (ix2 p q)
    = affine (hidden (V c main_v28) (V c main_arg6) (V c main_v29)) (V c main_arg8) (V c main_v30) (((cfg1.win 5).blk t).view.emb (ix2 p q))
  rw [out_emb t p ⟨t.val * 5000 + p.val, hlt⟩ rfl q]
  exact rows_eq _ _ _ _ _ _ _ _ _ _ p ⟨t.val * 5000 + p.val, hlt⟩ q
    (fun k => block0 V c t p ⟨t.val * 5000 + p.val, hlt⟩ rfl k) (block1 V c t) (block2 V c t) (block3 V c t) (block4 V c t)

/-- An index of the output array is in point t's block iff each coordinate is in the block's range. -/
theorem mem_block (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v31).slice (win1_5.rect t)).set ↔ _
  rw [View.set_slice_whole, Rect.mem_set_unit]
  exact Iff.rfl

/-- Row r of the output is written by point r / 5000. -/
theorem covered (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 5000 < cfg1.N := by rw [show cfg1.N = 20 from N_1]; omega
  refine ⟨⟨(i 0).val / 5000, hN⟩, flush1_5 _, ?_⟩
  rw [mem_block]
  obtain ⟨-, -, -, -, -, -, -, -, -, -, e0, e1⟩ := index_facts ⟨(i 0).val / 5000, hN⟩
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    have e0' : win1_5.index ⟨(i 0).val / 5000, hN⟩ (0 : Fin 2) = (i 0).val / 5000 := e0
    omega
  | ⟨1, _⟩ =>
    show win1_5.index ⟨(i 0).val / 5000, hN⟩ (1 : Fin 2) * 64 ≤ (i 1).val ∧ (i 1).val < win1_5.index ⟨(i 0).val / 5000, hN⟩ (1 : Fin 2) * 64 + 64
    omega

/-- THE OUTPUT ARRAY after the region: the two-layer network of the arrays the region found. -/
theorem final (c : Dev nD) :
    (dat1 V c).arrAt 5 cfg1.N = affine (hidden (V c main_v28) (V c main_arg6) (V c main_v29)) (V c main_arg8) (V c main_v30) :=
  (dat1 V c).arrAt_eq_of_cover 5 _ (fun t _ => flushed_eq V c t) covered

end Cert.KernelIdeal.Region1

end
-- ==== Proof.Region2.lean ====
/-
  REGION 2: the third pallas_call's output array as one function of the arrays the region finds.

  The grid has 20 points. At point t the body loads rows 5000·t … 5000·t + 4999 of its node array (window 0), the whole
  first weight matrix, first bias row, second weight matrix and second bias row (windows 1–4, the same block at every
  point), and stores  relu(x · w1 + b1) · w2 + b2  of those rows to rows 5000·t … of the output (window 5). A row of a
  dense layer depends only on the same row of its left operand, so the stored block is that block of the network of
  the WHOLE arrays; the 20 blocks tile the 100000 rows, so the output array ends holding the network of the whole
  arrays.
-/
import proofs.«140424_j34359738368489_1_alg».proof.Proof.Gen.KernelIdeal.Frame
import proofs.«140424_j34359738368489_1_alg».proof.Proof.LibDenseLayer
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx
open Idealize.SL.Sem Cert.DenseLayer

variable (V : (c : Dev nD) → (b : Ref sig .tc) → Buf (Elt Ideal) ((c : Thread nD τ).loc b))

theorem zeros : (![0, 0] : Fin 2 → Nat) = fun _ => 0 := funext fun a => by fin_cases a <;> rfl

theorem plain1 : Cert.PlainDot.IsPlain dot_S5000x64_S64x64_S5000x64_1_0_0_1_n_n := ⟨rfl, rfl, rfl, rfl, rfl, rfl⟩
theorem plain2 : Cert.PlainDot.IsPlain dot_S5000x64_S64x16_S5000x16_1_0_0_1_n_n := ⟨rfl, rfl, rfl, rfl, rfl, rfl⟩

/-- The value the body stores is the two-layer network of the five blocks it loaded (a change of float format and a
    cast of a shape to itself are the identity; each product goes into a zero accumulator). -/
theorem stored_eq (x0 : Vec Ideal S5000x64 .f32) (x1 : Vec Ideal S64x64 .f32) (x2 : Vec Ideal S1x64 .f32)
    (x3 : Vec Ideal S64x16 .f32) (x4 : Vec Ideal S1x16 .f32) :
    k2_pay1 (F := Ideal) x0 x1 x2 x3 x4 = affine (hidden x0 x1 x2) x3 x4 := by
  unfold k2_pay1
  simp only [shapeCast_self, truncf_eq]
  rw [Cert.DenseLayer.hidden_eq plain1, Cert.DenseLayer.affine_eq plain2]

/-- A row of the network of a block of rows is the same row of the network of the whole array. -/
theorem rows_eq (X : Mat 100000 64) (W1 : Mat 64 64) (B1 : Mat 1 64) (W2 : Mat 64 16) (B2 : Mat 1 16)
    (x0 : Mat 5000 64) (x1 : Mat 64 64) (x2 : Mat 1 64) (x3 : Mat 64 16) (x4 : Mat 1 16)
    (p : Fin 5000) (P : Fin 100000) (q : Fin 16)
    (h0 : ∀ k : Fin 64, x0 (ix2 p k) = X (ix2 P k)) (h1 : x1 = W1) (h2 : x2 = B1) (h3 : x3 = W2) (h4 : x4 = B2) :
    affine (hidden x0 x1 x2) x3 x4 (ix2 p q) = affine (hidden X W1 B1) W2 B2 (ix2 P q) := by
  subst h1 h2 h3 h4
  exact affine_congr _ _ x3 x3 x4 x4 p P q q
    (fun n => hidden_congr x0 X x1 x1 x2 x2 p P n n h0 (fun _ => rfl) rfl) (fun _ => rfl) rfl

/-- The printed index maps over the grid: windows 0 and 5 move down the rows with the point, windows 1–4 stay. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem point_lt (t : Fin cfg2.N) : t.val < 20 := lt_of_lt_of_eq t.isLt N_2

/-- Windows 1–4 hold their whole arrays at every point. -/
theorem block1 (c : Dev nD) (t : Fin cfg2.N) : iblk2 V c 1 t = V c main_arg10 := by
  obtain ⟨-, -, e0, e1, -⟩ := index_facts t
  funext y
  show V c main_arg10 (((cfg2.win 1).blk t).view.emb y) = V c main_arg10 y
  refine congrArg _ (funext fun a => Fin.ext ?_)
  match a with
  | ⟨0, _⟩ => show win2_1.index t (0 : Fin 2) * 64 + 1 * (y 0).val = (y 0).val; omega
  | ⟨1, _⟩ => show win2_1.index t (1 : Fin 2) * 64 + 1 * (y 1).val = (y 1).val; omega
theorem block2 (c : Dev nD) (t : Fin cfg2.N) : iblk2 V c 2 t = V c main_v32 := by
  obtain ⟨-, -, -, -, e0, e1, -⟩ := index_facts t
  funext y
  show V c main_v32 (((cfg2.win 2).blk t).view.emb y) = V c main_v32 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 64 + 1 * (y 1).val = (y 1).val; omega
theorem block3 (c : Dev nD) (t : Fin cfg2.N) : iblk2 V c 3 t = V c main_arg12 := by
  obtain ⟨-, -, -, -, -, -, e0, e1, -⟩ := index_facts t
  funext y
  show V c main_arg12 (((cfg2.win 3).blk t).view.emb y) = V c main_arg12 y
  refine congrArg _ (funext fun a => Fin.ext ?_)
  match a with
  | ⟨0, _⟩ => show win2_3.index t (0 : Fin 2) * 64 + 1 * (y 0).val = (y 0).val; omega
  | ⟨1, _⟩ => show win2_3.index t (1 : Fin 2) * 16 + 1 * (y 1).val = (y 1).val; omega
theorem block4 (c : Dev nD) (t : Fin cfg2.N) : iblk2 V c 4 t = V c main_v33 := by
  obtain ⟨-, -, -, -, -, -, -, -, e0, e1, -⟩ := index_facts t
  funext y
  show V c main_v33 (((cfg2.win 4).blk t).view.emb y) = V c main_v33 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 16 + 1 * (y 1).val = (y 1).val; omega

/-- Window 0's block at point t holds rows 5000·t … of the node array. -/
theorem block0 (c : Dev nD) (t : Fin cfg2.N) (p : Fin 5000) (P : Fin 100000) (hP : P.val = t.val * 5000 + p.val) (k : Fin 64) :
    iblk2 V c 0 t (ix2 p k) = V c main_v31 (ix2 P k) := by
  obtain ⟨e0, e1, -⟩ := index_facts t
  show V c main_v31 (((cfg2.win 0).blk t).view.emb (ix2 p k)) = V c main_v31 (ix2 P k)
  refine congrArg _ (funext fun a => Fin.ext ?_)
  match a with
  | ⟨0, _⟩ => show win2_0.index t (0 : Fin 2) * 5000 + 1 * p.val = P.val; omega
  | ⟨1, _⟩ => show win2_0.index t (1 : Fin 2) * 64 + 1 * k.val = k.val; omega

/-- The output block's position (p, q) is the array's position (5000·t + p, q). -/
theorem out_emb (t : Fin cfg2.N) (p : Fin 5000) (P : Fin 100000) (hP : P.val = t.val * 5000 + p.val) (q : Fin 16) :
    ((cfg2.win 5).blk t).view.emb (ix2 p q) = ix2 P q := by
  obtain ⟨-, -, -, -, -, -, -, -, -, -, e0, e1⟩ := index_facts t
  refine funext fun a => Fin.ext ?_
  match a with
  | ⟨0, _⟩ => show win2_5.index t (0 : Fin 2) * 5000 + 1 * p.val = P.val; omega
  | ⟨1, _⟩ => show win2_5.index t (1 : Fin 2) * 16 + 1 * q.val = q.val; omega

/-- WHAT POINT t WRITES BACK is block t of the network of the whole arrays. -/
theorem flushed_eq (c : Dev nD) (t : Fin cfg2.N) :
    (dat2 V c).flushed 5 t = ((cfg2.win 5).blk t).view.read (Elt Ideal)
      (affine (hidden (V c main_v31) (V c main_arg10) (V c main_v32)) (V c main_arg12) (V c main_v33)) := by
  show (cfg2.win 5).cut (grid2.coords t) ((dat2 V c).after 5 t) = _
  rw [after2_5]
  unfold out2_5
  rw [View.canon_unit_zero zeros]
  simp only [View.ld_unit_zero (S := S5000x64) zeros, View.ld_unit_zero (S := S64x64) zeros, View.ld_unit_zero (S := S1x64) zeros, View.ld_unit_zero (S := S64x16) zeros, View.ld_unit_zero (S := S1x16) zeros]
  rw [stored_eq]
  funext y
  obtain ⟨p, q, rfl⟩ : ∃ (p : Fin 5000) (q : Fin 16), y = ix2 p q := ⟨y 0, y 1, eq_ix2 y⟩
  have hlt : t.val * 5000 + p.val < 100000 := by have := point_lt t; have := p.isLt; omega
  show affine (hidden (iblk2 V c 0 t) (iblk2 V c 1 t) (iblk2 V c 2 t)) (iblk2 V c 3 t) (iblk2 V c 4 t) (ix2 p q)
    = affine (hidden (V c main_v31) (V c main_arg10) (V c main_v32)) (V c main_arg12) (V c main_v33) (((cfg2.win 5).blk t).view.emb (ix2 p q))
  rw [out_emb t p ⟨t.val * 5000 + p.val, hlt⟩ rfl q]
  exact rows_eq _ _ _ _ _ _ _ _ _ _ p ⟨t.val * 5000 + p.val, hlt⟩ q
    (fun k => block0 V c t p ⟨t.val * 5000 + p.val, hlt⟩ rfl k) (block1 V c t) (block2 V c t) (block3 V c t) (block4 V c t)

/-- An index of the output array is in point t's block iff each coordinate is in the block's range. -/
theorem mem_block (t : Fin cfg2.N) (i : S100000x16.Idx) :
    i ∈ ((cfg2.win 5).blk t).view.set ↔ ∀ a : Fin 2, win2_5.index t a * S5000x16.size a ≤ (i a).val ∧ (i a).val < win2_5.index t a * S5000x16.size a + S5000x16.size a := by
  show i ∈ ((View.whole main_v34).slice (win2_5.rect t)).set ↔ _
  rw [View.set_slice_whole, Rect.mem_set_unit]
  exact Iff.rfl

/-- Row r of the output is written by point r / 5000. -/
theorem covered (i : S100000x16.Idx) : ∃ t : Fin cfg2.N, (cfg2.win 5).flush t = true ∧ i ∈ ((cfg2.win 5).blk t).view.set := by
  have hi0 : (i 0).val < 100000 := (i 0).isLt
  have hi1 : (i 1).val < 16 := (i 1).isLt
  have hN : (i 0).val / 5000 < cfg2.N := by rw [show cfg2.N = 20 from N_2]; omega
  refine ⟨⟨(i 0).val / 5000, hN⟩, flush2_5 _, ?_⟩
  rw [mem_block]
  obtain ⟨-, -, -, -, -, -, -, -, -, -, e0, e1⟩ := index_facts ⟨(i 0).val / 5000, hN⟩
  intro a
  match a with
  | ⟨0, _⟩ =>
    show win2_5.index ⟨(i 0).val / 5000, hN⟩ (0 : Fin 2) * 5000 ≤ (i 0).val ∧ (i 0).val < win2_5.index ⟨(i 0).val / 5000, hN⟩ (0 : Fin 2) * 5000 + 5000
    have e0' : win2_5.index ⟨(i 0).val / 5000, hN⟩ (0 : Fin 2) = (i 0).val / 5000 := e0
    omega
  | ⟨1, _⟩ =>
    show win2_5.index ⟨(i 0).val / 5000, hN⟩ (1 : Fin 2) * 16 ≤ (i 1).val ∧ (i 1).val < win2_5.index ⟨(i 0).val / 5000, hN⟩ (1 : Fin 2) * 16 + 16
    omega

/-- THE OUTPUT ARRAY after the region: the two-layer network of the arrays the region found. -/
theorem final (c : Dev nD) :
    (dat2 V c).arrAt 5 cfg2.N = affine (hidden (V c main_v31) (V c main_arg10) (V c main_v32)) (V c main_arg12) (V c main_v33) :=
  (dat2 V c).arrAt_eq_of_cover 5 _ (fun t _ => flushed_eq V c t) covered

end Cert.KernelIdeal.Region2

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.LibHostDense.lean ====
/-
  Dense layers as the host spells them, on the extended reals.

  The host writes a fully connected layer as a `dot_general` contracting the left operand's second axis against
  the weights' first, plus the length-N bias laid out as a 1×N row (a broadcast along axis 1) and repeated down the
  rows (a broadcast along axes (0, 1)); a hidden layer takes the maximum of that with a rank-0 zero broadcast over
  the whole shape. As whole arrays these are the affine layer  l · w + b  and the hidden layer  relu(l · w + b)  of
  the bias as a row; a stack of a hidden and an affine layer is the two-layer network `mlp`. Any extents (a bias
  length of 1 excepted: the broadcast rule branches on it); no program needed.
-/
import Idealize.ShloMosaic.PureOps.Ideal.Laws
import Idealize.ShloMosaic.Lib.ValueIdx
import proofs.«140424_j34359738368489_1_alg».proof.Proof.LibPlainDot
import proofs.«140424_j34359738368489_1_alg».proof.Proof.LibDenseLayer
import proofs.«140424_j34359738368489_1_alg».proof.Proof.LibBroadcast

noncomputable section

open scoped BigOperators

namespace Cert.HostDense

open Idealize.ShloMosaic Idealize.ShloMosaic.ValueIdx Cert.DenseLayer

/-- The two-layer network  relu(x · w1 + b1) · w2 + b2,  the biases plain vectors. -/
def mlp {M K H N : Nat} (x : Mat M K) (w1 : Mat K H) (b1 : Vect H) (w2 : Mat H N) (b2 : Vect N) : Mat M N :=
  affine (hidden x w1 (row b1)) w2 (row b2)

section Layers
variable {M K N : Nat} {d : DotDims ⟨2, ![M, K]⟩ ⟨2, ![K, N]⟩ ⟨2, ![M, N]⟩}

/-- The host's product plus its bias broadcast twice is the affine layer of the bias as a row. -/
theorem affine_eq (hd : Cert.PlainDot.IsPlain d) (hN : N ≠ 1) (prec : Option ContractPrecision)
    (l : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d prec l w) (broadcastInDim ⟨2, ![M, N]⟩ ![0, 1] h2 (broadcastInDim ⟨2, ![1, N]⟩ ![1] h1 b))
      = affine l w (row b) := by
  funext j
  obtain ⟨p, c, rfl⟩ : ∃ (p : Fin M) (c : Fin N), j = ix2 p c := ⟨j 0, j 1, eq_ix2 j⟩
  rw [addf_apply, Cert.PlainDot.dotGeneral_apply hd, Cert.Bcast.bias_rows_apply hN, affine_apply, row_apply]

/-- … and the maximum with the zero word broadcast over the shape: the hidden layer. -/
theorem hidden_eq (hd : Cert.PlainDot.IsPlain d) (hN : N ≠ 1) (prec : Option ContractPrecision)
    (l : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (Host.dotGeneral d prec l w) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = hidden l w (row b) := by
  rw [affine_eq hd hN]
  funext j
  rw [maximumf_apply, Cert.Bcast.scalar_apply]
  rfl

end Layers

/-- The host's two layers in a row are the two-layer network. -/
theorem mlp_eq {M K H N : Nat} {d1 : DotDims ⟨2, ![M, K]⟩ ⟨2, ![K, H]⟩ ⟨2, ![M, H]⟩} {d2 : DotDims ⟨2, ![M, H]⟩ ⟨2, ![H, N]⟩ ⟨2, ![M, N]⟩}
    (hd1 : Cert.PlainDot.IsPlain d1) (hd2 : Cert.PlainDot.IsPlain d2) (hH : H ≠ 1) (hN : N ≠ 1) (prec1 prec2 : Option ContractPrecision)
    (x : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32)
    (g1 : (⟨1, ![H]⟩ : Shape).BroadcastsInDim ⟨2, ![1, H]⟩ ![1]) (g2 : (⟨2, ![1, H]⟩ : Shape).BroadcastsInDim ⟨2, ![M, H]⟩ ![0, 1])
    (g0 : (⟨0, ![]⟩ : Shape).BroadcastsInDim ⟨2, ![M, H]⟩ ![])
    (h1 : (⟨1, ![N]⟩ : Shape).BroadcastsInDim ⟨2, ![1, N]⟩ ![1]) (h2 : (⟨2, ![1, N]⟩ : Shape).BroadcastsInDim ⟨2, ![M, N]⟩ ![0, 1]) :
    addf (Host.dotGeneral d2 prec2
        (maximumf (addf (Host.dotGeneral d1 prec1 x w1) (broadcastInDim ⟨2, ![M, H]⟩ ![0, 1] g2 (broadcastInDim ⟨2, ![1, H]⟩ ![1] g1 b1)))
          (broadcastInDim ⟨2, ![M, H]⟩ ![] g0 (constant (F := Ideal) ⟨0, ![]⟩ .f32 0x00000000#32))) w2)
      (broadcastInDim ⟨2, ![M, N]⟩ ![0, 1] h2 (broadcastInDim ⟨2, ![1, N]⟩ ![1] h1 b2))
      = mlp x w1 b1 w2 b2 := by
  rw [hidden_eq hd1 hH, affine_eq hd2 hN]
  rfl

end Cert.HostDense

end
-- ==== Proof.Net.lean ====
/-
  The network both programs compute, as one function of the fourteen argument arrays.

  An aggregation step gathers, for every edge, the row of the node array at the edge's source (a negative source index
  wrapped once by the number of nodes), adds those rows into the rows named by the edges' destinations starting from
  zeros, and adds the node array itself (a self loop). The network is: aggregate, a two-layer dense network; aggregate
  again, a second two-layer network; a third two-layer network. The aggregation is kept as the host's own operations,
  never opened: both programs apply the same ones. The dense layers in the host's spelling are the two-layer network
  `mlp` at each of the three extents that occur.
-/
import proofs.«140424_j34359738368489_1_alg».proof.Proof.Gen.ReferenceIdeal
import proofs.«140424_j34359738368489_1_alg».proof.Proof.LibHostDense

set_option maxRecDepth 16384

noncomputable section

namespace Cert.Net

open Cert.ReferenceIdeal Cert.ReferenceIdeal.Facts₀ Cert.ReferenceIdeal.Facts Idealize.ShloMosaic Cert.DenseLayer Cert.HostDense

/-- The edge list: row 0 the sources, row 1 the destinations. -/
abbrev Edges : Type := (⟨S2x1600000, .i32⟩ : BufTy).Contents (Elt Ideal)

/-- Every edge's source row, a negative index wrapped by the number of nodes, as a column of start indices. -/
def src (e : Edges) : (⟨S1600000x1, .i32⟩ : BufTy).Contents (Elt Ideal) :=
  broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))

/-- Every edge's destination row, as a column of scatter indices. -/
def dst (e : Edges) : (⟨S1600000x1, .i32⟩ : BufTy).Contents (Elt Ideal) :=
  broadcastInDim S1600000x1 ![0] bcast_S1600000_S1600000x1_0 (shapeCast _ (extractStridedSlice S1x1600000 ![1, 0] e slices_S2x1600000_S1x1600000_1_0) shapeCasts_S1x1600000_S1600000)

/-- Aggregation of a 32-wide node array: the sum over incoming edges of the source rows, plus the node's own row. -/
def agg32 (x : FVec Ideal S100000x32 .f32) (e : Edges) : FVec Ideal S100000x32 .f32 :=
  addf (Host.scatterAdd scatter_S100000x32_S1600000x1_S1600000x32_1_0_0_1 (broadcastInDim S100000x32 ![] bcast_S_S100000x32 (constant S_ .f32 0x00000000#32)) (dst e) (Host.gather gather_S100000x32_S1600000x1_S1600000x32_1_0_n_n_0_1_132 x (src e))) x

/-- Aggregation of a 64-wide node array. -/
def agg64 (h : FVec Ideal S100000x64 .f32) (e : Edges) : FVec Ideal S100000x64 .f32 :=
  addf (Host.scatterAdd scatter_S100000x64_S1600000x1_S1600000x64_1_0_0_1 (broadcastInDim S100000x64 ![] bcast_S_S100000x64 (constant S_ .f32 0x00000000#32)) (dst e) (Host.gather gather_S100000x64_S1600000x1_S1600000x64_1_0_n_n_0_1_164 h (src e))) h

/-- The whole network. -/
def net (x : FVec Ideal S100000x32 .f32) (e : Edges)
    (w1_0 : FVec Ideal S32x64 .f32) (b1_0 : FVec Ideal S64 .f32) (w2_0 : FVec Ideal S64x64 .f32) (b2_0 : FVec Ideal S64 .f32)
    (w1_1 : FVec Ideal S64x64 .f32) (b1_1 : FVec Ideal S64 .f32) (w2_1 : FVec Ideal S64x64 .f32) (b2_1 : FVec Ideal S64 .f32)
    (cw1 : FVec Ideal S64x64 .f32) (cb1 : FVec Ideal S64 .f32) (cw2 : FVec Ideal S64x16 .f32) (cb2 : FVec Ideal S16 .f32) :
    FVec Ideal S100000x16 .f32 :=
  mlp (mlp (agg64 (mlp (agg32 x e) w1_0 b1_0 w2_0 b2_0) e) w1_1 b1_1 w2_1 b2_1) cw1 cb1 cw2 cb2

theorem plain_32_64 : Cert.PlainDot.IsPlain dot_S100000x32_S32x64_S100000x64_1_0_0_1_n_n := ⟨rfl, rfl, rfl, rfl, rfl, rfl⟩
theorem plain_64_64 : Cert.PlainDot.IsPlain dot_S100000x64_S64x64_S100000x64_1_0_0_1_n_n := ⟨rfl, rfl, rfl, rfl, rfl, rfl⟩
theorem plain_64_16 : Cert.PlainDot.IsPlain dot_S100000x64_S64x16_S100000x16_1_0_0_1_n_n := ⟨rfl, rfl, rfl, rfl, rfl, rfl⟩

/-- The host's two dense layers from 32 through 64 to 64 features are the two-layer network. -/
theorem host_32_64_64 (x : FVec Ideal S100000x32 .f32) (w1 : FVec Ideal S32x64 .f32) (b1 : FVec Ideal S64 .f32)
    (w2 : FVec Ideal S64x64 .f32) (b2 : FVec Ideal S64 .f32) :
    addf (Host.dotGeneral dot_S100000x64_S64x64_S100000x64_1_0_0_1_n_n none (maximumf (addf (Host.dotGeneral dot_S100000x32_S32x64_S100000x64_1_0_0_1_n_n none x w1) (broadcastInDim S100000x64 ![0, 1] bcast_S1x64_S100000x64_0_1 (broadcastInDim S1x64 ![1] bcast_S64_S1x64_1 b1))) (broadcastInDim S100000x64 ![] bcast_S_S100000x64 (constant S_ .f32 0x00000000#32))) w2) (broadcastInDim S100000x64 ![0, 1] bcast_S1x64_S100000x64_0_1 (broadcastInDim S1x64 ![1] bcast_S64_S1x64_1 b2))
      = mlp x w1 b1 w2 b2 :=
  mlp_eq plain_32_64 plain_64_64 (by decide) (by decide) none none x w1 b1 w2 b2 _ _ _ _ _

/-- … from 64 through 64 to 64 features. -/
theorem host_64_64_64 (x : FVec Ideal S100000x64 .f32) (w1 : FVec Ideal S64x64 .f32) (b1 : FVec Ideal S64 .f32)
    (w2 : FVec Ideal S64x64 .f32) (b2 : FVec Ideal S64 .f32) :
    addf (Host.dotGeneral dot_S100000x64_S64x64_S100000x64_1_0_0_1_n_n none (maximumf (addf (Host.dotGeneral dot_S100000x64_S64x64_S100000x64_1_0_0_1_n_n none x w1) (broadcastInDim S100000x64 ![0, 1] bcast_S1x64_S100000x64_0_1 (broadcastInDim S1x64 ![1] bcast_S64_S1x64_1 b1))) (broadcastInDim S100000x64 ![] bcast_S_S100000x64 (constant S_ .f32 0x00000000#32))) w2) (broadcastInDim S100000x64 ![0, 1] bcast_S1x64_S100000x64_0_1 (broadcastInDim S1x64 ![1] bcast_S64_S1x64_1 b2))
      = mlp x w1 b1 w2 b2 :=
  mlp_eq plain_64_64 plain_64_64 (by decide) (by decide) none none x w1 b1 w2 b2 _ _ _ _ _

/-- … from 64 through 64 to 16 features. -/
theorem host_64_64_16 (x : FVec Ideal S100000x64 .f32) (w1 : FVec Ideal S64x64 .f32) (b1 : FVec Ideal S64 .f32)
    (w2 : FVec Ideal S64x16 .f32) (b2 : FVec Ideal S16 .f32) :
    addf (Host.dotGeneral dot_S100000x64_S64x16_S100000x16_1_0_0_1_n_n none (maximumf (addf (Host.dotGeneral dot_S100000x64_S64x64_S100000x64_1_0_0_1_n_n none x w1) (broadcastInDim S100000x64 ![0, 1] bcast_S1x64_S100000x64_0_1 (broadcastInDim S1x64 ![1] bcast_S64_S1x64_1 b1))) (broadcastInDim S100000x64 ![] bcast_S_S100000x64 (constant S_ .f32 0x00000000#32))) w2) (broadcastInDim S100000x16 ![0, 1] bcast_S1x16_S100000x16_0_1 (broadcastInDim S1x16 ![1] bcast_S16_S1x16_1 b2))
      = mlp x w1 b1 w2 b2 :=
  mlp_eq plain_64_64 plain_64_16 (by decide) (by decide) none none x w1 b1 w2 b2 _ _ _ _ _

end Cert.Net

end
-- ==== Proof.KernelValue.lean ====
/-
  The idealized kernel's result is the network of its argument arrays.

  The buffer contents at the six boundaries of @main are read back one segment at a time. The first stretch of host
  operations leaves the aggregated node array and the two bias vectors laid out as rows; the first region leaves the
  two-layer network of those (its arrays are otherwise untouched); the second stretch aggregates that output with the
  same source and destination vectors, which the first stretch computed from the edge list; the second region leaves
  the second two-layer network; two reshapes lay out the last biases; the third region leaves the result. An argument
  array is written by nothing, so it is read at every boundary as launched.
-/
import proofs.«140424_j34359738368489_1_alg».proof.Proof.Gen.KernelIdeal.Frame
import proofs.«140424_j34359738368489_1_alg».proof.Proof.Region0
import proofs.«140424_j34359738368489_1_alg».proof.Proof.Region1
import proofs.«140424_j34359738368489_1_alg».proof.Proof.Region2
import proofs.«140424_j34359738368489_1_alg».proof.Proof.Net
import Idealize.ShloMosaic.Lib.StableHlo.Run

set_option maxRecDepth 16384

noncomputable section

namespace Cert.KernelIdeal.Final

open Cert.KernelIdeal Cert.KernelIdeal.Gen Idealize.ShloMosaic Idealize.ShloMosaic.TcCoe Idealize.ShloMosaic.StableHlo
open Idealize.SL.Sem Cert.DenseLayer Cert.HostDense

variable (m : (ℓ : Loc nD τ sig) → Buf (Elt Ideal) ℓ) (ρ : Dev nD → PrngReg) (c : Dev nD)

/-! ## The arguments at the boundaries -/

theorem at1_arg1 : W1 m ρ c (Proc.devRef .tc main_arg1) = m ((c : Thread nD τ).loc main_arg1) := by
  show StableHlo.after hostOps0 (W0 m ρ c) (Proc.devRef .tc main_arg1) = _
  dsimp only [hostOps0]
  after_results_simp <;> rfl
theorem at1_arg2 : W1 m ρ c (Proc.devRef .tc main_arg2) = m ((c : Thread nD τ).loc main_arg2) := by
  show StableHlo.after hostOps0 (W0 m ρ c) (Proc.devRef .tc main_arg2) = _
  dsimp only [hostOps0]
  after_results_simp <;> rfl
theorem at1_arg3 : W1 m ρ c (Proc.devRef .tc main_arg3) = m ((c : Thread nD τ).loc main_arg3) := by
  show StableHlo.after hostOps0 (W0 m ρ c) (Proc.devRef .tc main_arg3) = _
  dsimp only [hostOps0]
  after_results_simp <;> rfl
theorem at1_arg4 : W1 m ρ c (Proc.devRef .tc main_arg4) = m ((c : Thread nD τ).loc main_arg4) := by
  show StableHlo.after hostOps0 (W0 m ρ c) (Proc.devRef .tc main_arg4) = _
  dsimp only [hostOps0]
  after_results_simp <;> rfl
theorem at1_arg5 : W1 m ρ c (Proc.devRef .tc main_arg5) = m ((c : Thread nD τ).loc main_arg5) := by
  show StableHlo.after hostOps0 (W0 m ρ c) (Proc.devRef .tc main_arg5) = _
  dsimp only [hostOps0]
  after_results_simp <;> rfl
theorem at1_arg6 : W1 m ρ c (Proc.devRef .tc main_arg6) = m ((c : Thread nD τ).loc main_arg6) := by
  show StableHlo.after hostOps0 (W0 m ρ c) (Proc.devRef .tc main_arg6) = _
  dsimp only [hostOps0]
  after_results_simp <;> rfl
theorem at1_arg7 : W1 m ρ c (Proc.devRef .tc main_arg7) = m ((c : Thread nD τ).loc main_arg7) := by
  show StableHlo.after hostOps0 (W0 m ρ c) (Proc.devRef .tc main_arg7) = _
  dsimp only [hostOps0]
  after_results_simp <;> rfl
theorem at1_arg8 : W1 m ρ c (Proc.devRef .tc main_arg8) = m ((c : Thread nD τ).loc main_arg8) := by
  show StableHlo.after hostOps0 (W0 m ρ c) (Proc.devRef .tc main_arg8) = _
  dsimp only [hostOps0]
  after_results_simp <;> rfl
theorem at1_arg9 : W1 m ρ c (Proc.devRef .tc main_arg9) = m ((c : Thread nD τ).loc main_arg9) := by
  show StableHlo.after hostOps0 (W0 m ρ c) (Proc.devRef .tc main_arg9) = _
  dsimp only [hostOps0]
  after_results_simp <;> rfl
theorem at1_arg10 : W1 m ρ c (Proc.devRef .tc main_arg10) = m ((c : Thread nD τ).loc main_arg10) := by
  show StableHlo.after hostOps0 (W0 m ρ c) (Proc.devRef .tc main_arg10) = _
  dsimp only [hostOps0]
  after_results_simp <;> rfl
theorem at1_arg11 : W1 m ρ c (Proc.devRef .tc main_arg11) = m ((c : Thread nD τ).loc main_arg11) := by
  show StableHlo.after hostOps0 (W0 m ρ c) (Proc.devRef .tc main_arg11) = _
  dsimp only [hostOps0]
  after_results_simp <;> rfl
theorem at1_arg12 : W1 m ρ c (Proc.devRef .tc main_arg12) = m ((c : Thread nD τ).loc main_arg12) := by
  show StableHlo.after hostOps0 (W0 m ρ c) (Proc.devRef .tc main_arg12) = _
  dsimp only [hostOps0]
  after_results_simp <;> rfl
theorem at1_arg13 : W1 m ρ c (Proc.devRef .tc main_arg13) = m ((c : Thread nD τ).loc main_arg13) := by
  show StableHlo.after hostOps0 (W0 m ρ c) (Proc.devRef .tc main_arg13) = _
  dsimp only [hostOps0]
  after_results_simp <;> rfl
theorem at2_arg1 : W2 m ρ c (Proc.devRef .tc main_arg1) = m ((c : Thread nD τ).loc main_arg1) :=
  (W2_of_ne m ρ c main_arg1 (by decide)).trans (at1_arg1 m ρ c)
theorem at2_arg6 : W2 m ρ c (Proc.devRef .tc main_arg6) = m ((c : Thread nD τ).loc main_arg6) :=
  (W2_of_ne m ρ c main_arg6 (by decide)).trans (at1_arg6 m ρ c)
theorem at2_arg7 : W2 m ρ c (Proc.devRef .tc main_arg7) = m ((c : Thread nD τ).loc main_arg7) :=
  (W2_of_ne m ρ c main_arg7 (by decide)).trans (at1_arg7 m ρ c)
theorem at2_arg8 : W2 m ρ c (Proc.devRef .tc main_arg8) = m ((c : Thread nD τ).loc main_arg8) :=
  (W2_of_ne m ρ c main_arg8 (by decide)).trans (at1_arg8 m ρ c)
theorem at2_arg9 : W2 m ρ c (Proc.devRef .tc main_arg9) = m ((c : Thread nD τ).loc main_arg9) :=
  (W2_of_ne m ρ c main_arg9 (by decide)).trans (at1_arg9 m ρ c)
theorem at2_arg10 : W2 m ρ c (Proc.devRef .tc main_arg10) = m ((c : Thread nD τ).loc main_arg10) :=
  (W2_of_ne m ρ c main_arg10 (by decide)).trans (at1_arg10 m ρ c)
theorem at2_arg11 : W2 m ρ c (Proc.devRef .tc main_arg11) = m ((c : Thread nD τ).loc main_arg11) :=
  (W2_of_ne m ρ c main_arg11 (by decide)).trans (at1_arg11 m ρ c)
theorem at2_arg12 : W2 m ρ c (Proc.devRef .tc main_arg12) = m ((c : Thread nD τ).loc main_arg12) :=
  (W2_of_ne m ρ c main_arg12 (by decide)).trans (at1_arg12 m ρ c)
theorem at2_arg13 : W2 m ρ c (Proc.devRef .tc main_arg13) = m ((c : Thread nD τ).loc main_arg13) :=
  (W2_of_ne m ρ c main_arg13 (by decide)).trans (at1_arg13 m ρ c)
theorem at3_arg6 : W3 m ρ c (Proc.devRef .tc main_arg6) = m ((c : Thread nD τ).loc main_arg6) := by
  show StableHlo.after hostOps1 (W2 m ρ c) (Proc.devRef .tc main_arg6) = _
  dsimp only [hostOps1]
  after_results_simp
  exact at2_arg6 m ρ c
theorem at3_arg7 : W3 m ρ c (Proc.devRef .tc main_arg7) = m ((c : Thread nD τ).loc main_arg7) := by
  show StableHlo.after hostOps1 (W2 m ρ c) (Proc.devRef .tc main_arg7) = _
  dsimp only [hostOps1]
  after_results_simp
  exact at2_arg7 m ρ c
theorem at3_arg8 : W3 m ρ c (Proc.devRef .tc main_arg8) = m ((c : Thread nD τ).loc main_arg8) := by
  show StableHlo.after hostOps1 (W2 m ρ c) (Proc.devRef .tc main_arg8) = _
  dsimp only [hostOps1]
  after_results_simp
  exact at2_arg8 m ρ c
theorem at3_arg9 : W3 m ρ c (Proc.devRef .tc main_arg9) = m ((c : Thread nD τ).loc main_arg9) := by
  show StableHlo.after hostOps1 (W2 m ρ c) (Proc.devRef .tc main_arg9) = _
  dsimp only [hostOps1]
  after_results_simp
  exact at2_arg9 m ρ c
theorem at3_arg10 : W3 m ρ c (Proc.devRef .tc main_arg10) = m ((c : Thread nD τ).loc main_arg10) := by
  show StableHlo.after hostOps1 (W2 m ρ c) (Proc.devRef .tc main_arg10) = _
  dsimp only [hostOps1]
  after_results_simp
  exact at2_arg10 m ρ c
theorem at3_arg11 : W3 m ρ c (Proc.devRef .tc main_arg11) = m ((c : Thread nD τ).loc main_arg11) := by
  show StableHlo.after hostOps1 (W2 m ρ c) (Proc.devRef .tc main_arg11) = _
  dsimp only [hostOps1]
  after_results_simp
  exact at2_arg11 m ρ c
theorem at3_arg12 : W3 m ρ c (Proc.devRef .tc main_arg12) = m ((c : Thread nD τ).loc main_arg12) := by
  show StableHlo.after hostOps1 (W2 m ρ c) (Proc.devRef .tc main_arg12) = _
  dsimp only [hostOps1]
  after_results_simp
  exact at2_arg12 m ρ c
theorem at3_arg13 : W3 m ρ c (Proc.devRef .tc main_arg13) = m ((c : Thread nD τ).loc main_arg13) := by
  show StableHlo.after hostOps1 (W2 m ρ c) (Proc.devRef .tc main_arg13) = _
  dsimp only [hostOps1]
  after_results_simp
  exact at2_arg13 m ρ c
theorem at4_arg10 : W4 m ρ c (Proc.devRef .tc main_arg10) = m ((c : Thread nD τ).loc main_arg10) :=
  (W4_of_ne m ρ c main_arg10 (by decide)).trans (at3_arg10 m ρ c)
theorem at4_arg11 : W4 m ρ c (Proc.devRef .tc main_arg11) = m ((c : Thread nD τ).loc main_arg11) :=
  (W4_of_ne m ρ c main_arg11 (by decide)).trans (at3_arg11 m ρ c)
theorem at4_arg12 : W4 m ρ c (Proc.devRef .tc main_arg12) = m ((c : Thread nD τ).loc main_arg12) :=
  (W4_of_ne m ρ c main_arg12 (by decide)).trans (at3_arg12 m ρ c)
theorem at4_arg13 : W4 m ρ c (Proc.devRef .tc main_arg13) = m ((c : Thread nD τ).loc main_arg13) :=
  (W4_of_ne m ρ c main_arg13 (by decide)).trans (at3_arg13 m ρ c)
theorem at5_arg10 : W5 m ρ c (Proc.devRef .tc main_arg10) = m ((c : Thread nD τ).loc main_arg10) := by
  show StableHlo.after hostOps2 (W4 m ρ c) (Proc.devRef .tc main_arg10) = _
  dsimp only [hostOps2]
  after_results_simp
  exact at4_arg10 m ρ c
theorem at5_arg11 : W5 m ρ c (Proc.devRef .tc main_arg11) = m ((c : Thread nD τ).loc main_arg11) := by
  show StableHlo.after hostOps2 (W4 m ρ c) (Proc.devRef .tc main_arg11) = _
  dsimp only [hostOps2]
  after_results_simp
  exact at4_arg11 m ρ c
theorem at5_arg12 : W5 m ρ c (Proc.devRef .tc main_arg12) = m ((c : Thread nD τ).loc main_arg12) := by
  show StableHlo.after hostOps2 (W4 m ρ c) (Proc.devRef .tc main_arg12) = _
  dsimp only [hostOps2]
  after_results_simp
  exact at4_arg12 m ρ c
theorem at5_arg13 : W5 m ρ c (Proc.devRef .tc main_arg13) = m ((c : Thread nD τ).loc main_arg13) := by
  show StableHlo.after hostOps2 (W4 m ρ c) (Proc.devRef .tc main_arg13) = _
  dsimp only [hostOps2]
  after_results_simp
  exact at4_arg13 m ρ c

/-! ## The source and destination vectors, computed once by the first stretch -/

theorem at1_sources : W1 m ρ c (Proc.devRef .tc main_v1)
    = shapeCast _ (extractStridedSlice S1x1600000 ![0, 0] (m ((c : Thread nD τ).loc main_arg1)) slices_S2x1600000_S1x1600000_0_0) shapeCasts_S1x1600000_S1600000 := by
  show StableHlo.after hostOps0 (W0 m ρ c) (Proc.devRef .tc main_v1) = _
  dsimp only [hostOps0]
  after_results_simp <;> rfl
theorem at2_sources : W2 m ρ c (Proc.devRef .tc main_v1)
    = shapeCast _ (extractStridedSlice S1x1600000 ![0, 0] (m ((c : Thread nD τ).loc main_arg1)) slices_S2x1600000_S1x1600000_0_0) shapeCasts_S1x1600000_S1600000 :=
  (W2_of_ne m ρ c main_v1 (by decide)).trans (at1_sources m ρ c)
theorem at1_dests : W1 m ρ c (Proc.devRef .tc main_v3)
    = shapeCast _ (extractStridedSlice S1x1600000 ![1, 0] (m ((c : Thread nD τ).loc main_arg1)) slices_S2x1600000_S1x1600000_1_0) shapeCasts_S1x1600000_S1600000 := by
  show StableHlo.after hostOps0 (W0 m ρ c) (Proc.devRef .tc main_v3) = _
  dsimp only [hostOps0]
  after_results_simp <;> rfl
theorem at2_dests : W2 m ρ c (Proc.devRef .tc main_v3)
    = shapeCast _ (extractStridedSlice S1x1600000 ![1, 0] (m ((c : Thread nD τ).loc main_arg1)) slices_S2x1600000_S1x1600000_1_0) shapeCasts_S1x1600000_S1600000 :=
  (W2_of_ne m ρ c main_v3 (by decide)).trans (at1_dests m ρ c)

/-! ## Region 0 -/

theorem in0_nodes : V1 m ρ c main_v14 = Cert.Net.agg32 (m ((c : Thread nD τ).loc main_arg0)) (m ((c : Thread nD τ).loc main_arg1)) := by
  show StableHlo.after hostOps0 (W0 m ρ c) (Proc.devRef .tc main_v14) = _
  dsimp only [hostOps0]
  after_results_simp <;> rfl
theorem in0_bias1 : V1 m ρ c main_v15 = row (m ((c : Thread nD τ).loc main_arg3)) := by
  show StableHlo.after hostOps0 (W0 m ρ c) (Proc.devRef .tc main_v15) = _
  dsimp only [hostOps0]
  after_results_simp
  exact reshape_row _ _
theorem in0_bias2 : V1 m ρ c main_v16 = row (m ((c : Thread nD τ).loc main_arg5)) := by
  show StableHlo.after hostOps0 (W0 m ρ c) (Proc.devRef .tc main_v16) = _
  dsimp only [hostOps0]
  after_results_simp
  exact reshape_row _ _

/-- The first region's output at its exit. -/
theorem out0 : W2 m ρ c (Proc.devRef .tc main_v17)
    = mlp (Cert.Net.agg32 (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) := by
  refine (W2_arr m ρ c 5).trans ((Cert.KernelIdeal.Region0.final (V1 m ρ) c).trans ?_)
  rw [in0_nodes, in0_bias1, in0_bias2, show V1 m ρ c main_arg2 = _ from at1_arg2 m ρ c, show V1 m ρ c main_arg4 = _ from at1_arg4 m ρ c]
  rfl

/-! ## Region 1 -/

theorem in1_nodes : V3 m ρ c main_v28
    = Cert.Net.agg64 (mlp (Cert.Net.agg32 (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5))) (m ((c : Thread nD τ).loc main_arg1)) := by
  show StableHlo.after hostOps1 (W2 m ρ c) (Proc.devRef .tc main_v28) = _
  dsimp only [hostOps1]
  after_results_simp
  rw [at2_sources, at2_dests, out0]
  rfl
theorem in1_bias1 : V3 m ρ c main_v29 = row (m ((c : Thread nD τ).loc main_arg7)) := by
  show StableHlo.after hostOps1 (W2 m ρ c) (Proc.devRef .tc main_v29) = _
  dsimp only [hostOps1]
  after_results_simp
  rw [at2_arg7]
  exact reshape_row _ _
theorem in1_bias2 : V3 m ρ c main_v30 = row (m ((c : Thread nD τ).loc main_arg9)) := by
  show StableHlo.after hostOps1 (W2 m ρ c) (Proc.devRef .tc main_v30) = _
  dsimp only [hostOps1]
  after_results_simp
  rw [at2_arg9]
  exact reshape_row _ _

/-- The second region's output at its exit. -/
theorem out1 : W4 m ρ c (Proc.devRef .tc main_v31)
    = mlp (Cert.Net.agg64 (mlp (Cert.Net.agg32 (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5))) (m ((c : Thread nD τ).loc main_arg1))) (m ((c : Thread nD τ).loc main_arg6)) (m ((c : Thread nD τ).loc main_arg7)) (m ((c : Thread nD τ).loc main_arg8)) (m ((c : Thread nD τ).loc main_arg9)) := by
  refine (W4_arr m ρ c 5).trans ((Cert.KernelIdeal.Region1.final (V3 m ρ) c).trans ?_)
  rw [in1_nodes, in1_bias1, in1_bias2, show V3 m ρ c main_arg6 = _ from at3_arg6 m ρ c, show V3 m ρ c main_arg8 = _ from at3_arg8 m ρ c]
  rfl

/-! ## Region 2 -/

theorem in2_nodes : V5 m ρ c main_v31
    = mlp (Cert.Net.agg64 (mlp (Cert.Net.agg32 (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5))) (m ((c : Thread nD τ).loc main_arg1))) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v31) = _
  dsimp only [hostOps2]
  after_results_simp
  exact out1 m ρ c
theorem in2_bias1 : V5 m ρ c main_v32 = row (m ((c : Thread nD τ).loc main_arg11)) := by
  show StableHlo.after hostOps2 (W4 m ρ c) (Proc.devRef .tc main_v32) = _
  dsimp only [hostOps2]
  after_results_simp
  rw [at4_arg11]
  exact reshape_row _ _
theorem in2_bias2 : V5 m ρ c main_v33 = row (m ((c : Thread nD τ).loc main_arg13)) := by
  show StableHlo.after hostOps2 (W4 m ρ c) (Proc.devRef .tc main_v33) = _
  dsimp only [hostOps2]
  after_results_simp
  rw [at4_arg13]
  exact reshape_row _ _

/-- THE RESULT at the last boundary: the network of the launch arguments. -/
theorem result_eq : W6 m ρ c (Proc.devRef .tc main_v34)
    = Cert.Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W6_arr m ρ c 5).trans ((Cert.KernelIdeal.Region2.final (V5 m ρ) c).trans ?_)
  rw [in2_nodes, in2_bias1, in2_bias2, show V5 m ρ c main_arg10 = _ from at5_arg10 m ρ c, show V5 m ρ c main_arg12 = _ from at5_arg12 m ρ c]
  rfl

end Cert.KernelIdeal.Final

end
-- ==== Proof.RefValue.lean ====
/-
  The reference's result is the network of its argument arrays.

  The reference's run ends with its result buffer at the composed term of its host operations; in it each pair of
  dense layers is the two-layer network, and what remains is the network's own definition (the aggregation steps are
  the same operations, read off without being opened).
-/
import proofs.«140424_j34359738368489_1_alg».proof.Proof.Gen.ReferenceIdeal.Run
import proofs.«140424_j34359738368489_1_alg».proof.Proof.Net

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem

theorem result_eq (m : (ℓ : Loc nD τ sig) → Buf (Elt Ideal) ℓ) (c : Dev nD) :
    res_main_v55 (F := Ideal) m c = Cert.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold res_main_v55
  rw [Cert.Net.host_32_64_64, Cert.Net.host_64_64_64, Cert.Net.host_64_64_16]
  rfl

end Cert.ReferenceIdeal.RefValue

end
-- ==== Proof.lean ====
/-
  Three pallas_calls, each a two-layer dense network  relu(x · w1 + b1) · w2 + b2  tiled over 20 blocks of 5000 node
  rows, with an edge aggregation (gather the source rows, add them into the destination rows, add the node's own row)
  in front of the first two, against the same network written with whole-array products.

  On the extended reals both programs compute ONE function of the fourteen arguments (`Cert.Net.net`): a change of
  float format is the identity, a block of rows of a dense layer is the dense layer of that block of rows, a product
  into a zero accumulator and a whole-array product are the same finite sums, and a bias laid out as a row by a
  reshape or by a broadcast is the same row. The aggregation is the same host operations on both sides and is never
  opened. No law that needs finite inputs is used. The ideal pass rewrote nothing, so the idealization's
  correctness has nothing to state.
-/
import proofs.«140424_j34359738368489_1_alg».proof.Defs
import proofs.«140424_j34359738368489_1_alg».proof.Proof.Gen.Kernel
import proofs.«140424_j34359738368489_1_alg».proof.Proof.Gen.Kernel.Skeleton
import proofs.«140424_j34359738368489_1_alg».proof.Proof.Gen.Kernel.Launch
import proofs.«140424_j34359738368489_1_alg».proof.Proof.Gen.Kernel.Points
import proofs.«140424_j34359738368489_1_alg».proof.Proof.Gen.Kernel.Frame
import proofs.«140424_j34359738368489_1_alg».proof.Proof.Gen.KernelIdeal
import proofs.«140424_j34359738368489_1_alg».proof.Proof.Gen.KernelIdeal.Skeleton
import proofs.«140424_j34359738368489_1_alg».proof.Proof.Gen.KernelIdeal.Launch
import proofs.«140424_j34359738368489_1_alg».proof.Proof.Gen.KernelIdeal.Points
import proofs.«140424_j34359738368489_1_alg».proof.Proof.Gen.KernelIdeal.Frame
import proofs.«140424_j34359738368489_1_alg».proof.Proof.Gen.ReferenceIdeal
import proofs.«140424_j34359738368489_1_alg».proof.Proof.Gen.Pre_finite_inputs
import proofs.«140424_j34359738368489_1_alg».proof.Proof.Gen.ReferenceIdeal.Run
import proofs.«140424_j34359738368489_1_alg».proof.Proof.KernelRun
import proofs.«140424_j34359738368489_1_alg».proof.Proof.KernelValue
import proofs.«140424_j34359738368489_1_alg».proof.Proof.RefValue
import Idealize.ShloMosaic.Adequacy
import Idealize.ShloMosaic.Init

set_option maxRecDepth 16384

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the network of the arguments in their result buffers. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Final.result_eq m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.RefValue.result_eq, h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
